-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S_ : Shape := ⟨0, ![]⟩
abbrev S32x1024 : Shape := ⟨2, ![32, 1024]⟩
abbrev S256x1024 : Shape := ⟨2, ![256, 1024]⟩
abbrev S32x256 : Shape := ⟨2, ![32, 256]⟩
abbrev S32x128 : Shape := ⟨2, ![32, 128]⟩
abbrev S256x128 : Shape := ⟨2, ![256, 128]⟩
abbrev S32x1x128 : Shape := ⟨3, ![32, 1, 128]⟩
abbrev S1x256x128 : Shape := ⟨3, ![1, 256, 128]⟩
abbrev S32x256x128 : Shape := ⟨3, ![32, 256, 128]⟩

abbrev nBuf : Space → Nat
  | .hbm => 19
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S128x1024, .f32⟩
  | .local _ .vmem, ⟨0, _⟩ => ⟨S32x1024, .f32⟩
  | .local _ .vmem, ⟨1, _⟩ => ⟨S32x1024, .f32⟩
  | .local _ .vmem, ⟨2, _⟩ => ⟨S256x1024, .f32⟩
  | .local _ .vmem, ⟨3, _⟩ => ⟨S256x1024, .f32⟩
  | .local _ .vmem, ⟨4, _⟩ => ⟨S32x256, .f32⟩
  | .local _ .vmem, ⟨5, _⟩ => ⟨S32x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  v4
def k0_off1 (k0_t1 : Fin k0_t1_loop.trips) : Fin 2 → Nat :=
  let c0_2 : Index := 0#32
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v6 : Index := Scalar.indexCast v5
  ![0, v6.toNat]
def k0_off2 (k0_t1 : Fin k0_t1_loop.trips) : Fin 2 → Nat :=
  let c0_3 : Index := 0#32
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v9 : Index := Scalar.indexCast v5
  ![0, v9.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S128x1024 : S_.BroadcastsInDim S128x1024 (![] : Fin 0 → Fin S128x1024.rank)
  bcast_S_S1024x1024 : S_.BroadcastsInDim S1024x1024 (![] : Fin 0 → Fin S1024x1024.rank)
  h_S32x128 : 0 < S32x128.numel
  shapeCasts_S32x128_S32x128 : S32x128.ShapeCasts S32x128
  h_S256x128 : 0 < S256x128.numel
  shapeCasts_S256x128_S256x128 : S256x128.ShapeCasts S256x128
  shapeCasts_S32x128_S32x1x128 : S32x128.ShapeCasts S32x1x128
  shapeCasts_S256x128_S1x256x128 : S256x128.ShapeCasts S1x256x128
  broadcasts_S32x1x128_S32x256x128 : S32x1x128.Broadcasts S32x256x128
  broadcasts_S1x256x128_S32x256x128 : S1x256x128.Broadcasts S32x256x128
  shapeCasts_S1x256x128_S1x256x128 : S1x256x128.ShapeCasts S1x256x128
  reduces_S32x256x128_S32x256 : S32x256x128.Reduces [2] S32x256
  inb_S32x256_S32x256_0_0 : ∀ a, (![0, 0] : Fin 2 → Nat) a + S32x256.size a ≤ S32x256.size a
  h_S32x256 : 0 < S32x256.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128.size a ≤ S32x1024.size a
  k0_off2_inb : ∀ k0_t1 : Fin k0_t1_loop.trips, ∀ a, (k0_off2 k0_t1) a + S256x128.size a ≤ S256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S128x1024.size a
  hwx0_0 : ∀ i : grid0.Coords, EltTy.bits .f32 = 32 ∨ (Rect.block (s := S128x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .f32 = 32 ∨ (Rect.block (s := S1024x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S128x1024.size a
  hwx0_2 : ∀ i : grid0.Coords, EltTy.bits .f32 = 32 ∨ (Rect.block (s := S128x1024) S32x256.size (cc0_transform_2 i) (hinb0_2 i)).WholeWords (EltTy.packing .f32)

variable [Facts₀]

abbrev win0_0 : Pipeline.Window sig grid0 :=
  Pipeline.Window.ofSpec (Memref.whole main_v5) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩
abbrev S128x1x1024 : Shape := ⟨3, ![128, 1, 1024]⟩
abbrev S1x1024x1024 : Shape := ⟨3, ![1, 1024, 1024]⟩
abbrev S128x1024x1024 : Shape := ⟨3, ![128, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S128x1x1024, .f32⟩
  | .hbm, ⟨19, _⟩ => ⟨S1x1024x1024, .f32⟩
  | .hbm, ⟨20, _⟩ => ⟨S128x1024x1024, .f32⟩
  | .hbm, ⟨21, _⟩ => ⟨S128x1024x1024, .f32⟩
  | .hbm, ⟨22, _⟩ => ⟨S128x1024x1024, .i1⟩
  | .hbm, ⟨23, _⟩ => ⟨S128x1024x1024, .f32⟩
  | .hbm, ⟨24, _⟩ => ⟨S128x1024x1024, .f32⟩
  | .hbm, ⟨25, _⟩ => ⟨S128x1024x1024, .f32⟩
  | .hbm, ⟨26, _⟩ => ⟨S128x1024x1024, .f32⟩
  | .hbm, ⟨27, _⟩ => ⟨S_, .f32⟩
  | .hbm, ⟨28, _⟩ => ⟨S128x1024x1024, .f32⟩
  | .hbm, ⟨29, _⟩ => ⟨S128x1024x1024, .f32⟩
  | .hbm, ⟨30, _⟩ => ⟨S128x1024x1024, .f32⟩
  | .hbm, ⟨31, _⟩ => ⟨S128x1024x1024, .f32⟩
  | .hbm, ⟨32, _⟩ => ⟨S_, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S128x1024x1024, .f32⟩
  | .hbm, ⟨37, _⟩ => ⟨S128x1024x1024, .f32⟩
  | .hbm, ⟨38, _⟩ => ⟨S128x1024x1024, .f32⟩
  | .hbm, ⟨39, _⟩ => ⟨S128x1024x1024, .f32⟩
  | .hbm, ⟨40, _⟩ => ⟨S_, .f32⟩
  | .hbm, ⟨41, _⟩ => ⟨S128x1024x1024, .f32⟩
  | .hbm, ⟨42, _⟩ => ⟨S128x1024x1024, .f32⟩
  | .hbm, ⟨43, _⟩ => ⟨S128x1024x1024, .f32⟩
  | .hbm, ⟨44, _⟩ => ⟨S128x1024x1024, .f32⟩
  | .hbm, ⟨45, _⟩ => ⟨S128x1024x1024, .f32⟩
  | .hbm, ⟨46, _⟩ => ⟨S_, .f32⟩
  | .hbm, ⟨47, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S_S1024x1024 : S_.BroadcastsInDim S1024x1024 (![] : Fin 0 → Fin S1024x1024.rank)
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S128x1024_d2 : S128x1024x1024.ReducesTo [2] S128x1024
  h_S_ : 0 < S_.numel

variable [Facts₀]

class Facts : Prop extends Facts₀ where

variable [Facts]
-- ==== Proof.Heyting.lean ====
/-
  The mathematics of the layer, free of any program.  The unit interval is a Heyting algebra whose implication
  `a ⇒ b` is `1` when `a ≤ b` and `b` otherwise; here the same formula is read on every extended real (the
  programs apply it to logistic values, which lie in the unit interval), and the layer's output at `(row, unit)`
  is the infimum over the input features `i` of `A row i ⇒ B unit i`.

  Two facts join the two programs.  (1) The straight-through form `c + (1 - c) · b` with
  `c = (e - s) + s`, `e ∈ {0, 1}` the truth value of `a ≤ b` and `s` a logistic value, IS `a ⇒ b`:
  a logistic value is a real number whatever its argument (0 and 1 at the infinities), so
  `(e - s) + s = e` exactly, and `1 + 0 · b = 1`, `0 + 1 · b = b` hold for every extended real `b`.
  (2) An infimum over 1024 indices taken in eight runs of 128, each run's infimum folded into a running
  minimum that starts at `+∞`, is the infimum over all of them: a lower bound of the running minimum
  after `k` runs is exactly a lower bound of the first `128 · k` terms.
-/
import Idealize.ShloMosaic.PureOps.Ideal
import Idealize.ShloMosaic.PureOps.Ideal.Laws

noncomputable section

namespace Cert.Heyting

open Idealize.ShloMosaic

/-- The pattern of `1.0` denotes the extended real `1`. -/
theorem ofBits_one : Ideal.ofBits .f32 0x3F800000#32 = 1 := by
  simp [Ideal.ofBits, Ideal.ieee, -EReal.coe_mul]; norm_num

/-- The pattern of `+inf` denotes `⊤`. -/
theorem ofBits_top : Ideal.ofBits .f32 0x7F800000#32 = ⊤ := by
  simp [Ideal.ofBits, Ideal.ieee]

/-- The formula of the unit interval's Heyting implication — `1` when `a ≤ b`, else `b` — on every extended real
    (outside the unit interval it is only this formula: the order's own top there is `⊤`, not `1`). -/
def imp (a b : EReal) : EReal := if a ≤ b then 1 else b

/-- A logistic value `1 / (1 + e^{-z})` is a real number, whatever `z` (`0` at `-∞`, `1` at `+∞`). -/
theorem logistic_real (z : EReal) : ∃ r : ℝ, Ideal.div 1 (1 + Ideal.exp (-z)) = (r : EReal) := by
  show ∃ r : ℝ, Ideal.logistic z = (r : EReal)
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- Subtracting a real and adding it back changes no real. -/
theorem sub_add_real (x r : ℝ) : ((x : EReal) - (r : EReal)) + (r : EReal) = (x : EReal) := by
  rw [← EReal.coe_sub, ← EReal.coe_add, sub_add_cancel]

/-- THE STRAIGHT-THROUGH FORM IS THE IMPLICATION: with `e` the truth value of `a ≤ b` as a number and `s` any
    real, `c + (1 - c) · b` at `c = (e - s) + s` is `1` when `a ≤ b` and `b` otherwise. -/
theorem straight_through (a b s : EReal) (hs : ∃ r : ℝ, s = (r : EReal)) :
    ((((Ideal.cmp .ole a b).toNat : ℝ) : EReal) - s + s)
      + (1 - ((((Ideal.cmp .ole a b).toNat : ℝ) : EReal) - s + s)) * b = imp a b := by
  obtain ⟨r, rfl⟩ := hs
  rw [sub_add_real]
  unfold imp
  by_cases h : a ≤ b
  · have e : (Ideal.cmp .ole a b).toNat = 1 := by simp [Ideal.cmp, h]
    rw [e, if_pos h, Nat.cast_one, EReal.coe_one]
    have z : (1 : EReal) - 1 = 0 := by
      rw [← EReal.coe_one, ← EReal.coe_sub, sub_self, EReal.coe_zero]
    rw [z, zero_mul, add_zero]
  · have e : (Ideal.cmp .ole a b).toNat = 0 := by simp [Ideal.cmp, h]
    rw [e, if_neg h, Nat.cast_zero, EReal.coe_zero, sub_zero, one_mul, zero_add]

/-- The vector unit's `select` on the comparison's bit, between `1` and `b`, is the implication too. -/
theorem select_cmp (a b : EReal) : Scalar.select (Ideal.cmp .ole a b) (1 : EReal) b = imp a b := by
  unfold imp
  by_cases h : a ≤ b
  · have e : Ideal.cmp .ole a b = 1#1 := by simp [Ideal.cmp, h]
    rw [e, if_pos h]; exact if_pos rfl
  · have e : Ideal.cmp .ole a b = 0#1 := by simp [Ideal.cmp, h]
    rw [e, if_neg h]; exact if_neg (by decide)

/-! ## An infimum taken in runs -/

/-- The infimum of the terms whose index is below `n` (`⊤` when there is none). -/
def infBelow (f : Fin 1024 → EReal) (n : ℕ) : EReal := ⨅ i : Fin 1024, if i.val < n then f i else ⊤

theorem le_infBelow_iff (f : Fin 1024 → EReal) (n : ℕ) (c : EReal) :
    c ≤ infBelow f n ↔ ∀ i : Fin 1024, i.val < n → c ≤ f i := by
  unfold infBelow
  rw [le_iInf_iff]
  constructor
  · intro h i hi; have := h i; rwa [if_pos hi] at this
  · intro h i
    by_cases hi : i.val < n
    · rw [if_pos hi]; exact h i hi
    · rw [if_neg hi]; exact le_top

/-- Before any run the running minimum is `⊤`. -/
theorem infBelow_zero (f : Fin 1024 → EReal) : infBelow f 0 = ⊤ :=
  top_unique ((le_infBelow_iff f 0 ⊤).2 fun i hi => absurd hi (Nat.not_lt_zero _))

/-- After all of them it is the infimum of every term. -/
theorem infBelow_all (f : Fin 1024 → EReal) : infBelow f 1024 = ⨅ i, f i :=
  eq_of_forall_le_iff fun c => by
    rw [le_infBelow_iff, le_iInf_iff]
    exact ⟨fun h i => h i i.isLt, fun h i _ => h i⟩

/-- A fold of `min` from `⊤` over a finite index type is the infimum. -/
theorem fold_min_top {n : ℕ} (g : Fin n → EReal) : (Finset.univ : Finset (Fin n)).fold min ⊤ g = ⨅ l, g l :=
  eq_of_forall_le_iff fun c => by
    rw [Finset.le_fold_min, le_iInf_iff]
    exact ⟨fun h l => h.2 l (Finset.mem_univ l), fun h => ⟨le_top, fun l _ => h l⟩⟩

/-- ONE RUN: the running minimum over the first `128 · k` terms, met with the infimum of the next 128, is the running
    minimum over the first `128 · (k + 1)`. -/
theorem infBelow_run (f : Fin 1024 → EReal) (k : ℕ) (hk : k < 8) (g : Fin 128 → EReal)
    (hg : ∀ l : Fin 128, g l = f ⟨128 * k + l.val, by have := l.isLt; omega⟩) :
    min (infBelow f (128 * k)) (⨅ l, g l) = infBelow f (128 * (k + 1)) :=
  eq_of_forall_le_iff fun c => by
    rw [le_min_iff, le_infBelow_iff, le_infBelow_iff, le_iInf_iff]
    constructor
    · rintro ⟨h1, h2⟩ i hi
      by_cases hlt : i.val < 128 * k
      · exact h1 i hlt
      · have hl : i.val - 128 * k < 128 := by omega
        have := h2 ⟨i.val - 128 * k, hl⟩
        rw [hg] at this
        have e : (⟨128 * k + (i.val - 128 * k), by omega⟩ : Fin 1024) = i := Fin.ext (by simp only; omega)
        rwa [e] at this
    · intro h
      refine ⟨fun i hi => h i (by omega), fun l => ?_⟩
      rw [hg]
      exact h _ (by have := l.isLt; simp only; omega)

end Cert.Heyting

end
-- ==== Proof.KernelTrip.lean ====
/-
  One trip of the kernel's loop over the input features, read at an output position.

  A trip loads columns `128 k … 128 k + 127` of the row block (32 rows) and of the unit block (256 units), lays the rows
  along the first axis and the units along the second of a `32 × 256 × 128` box, compares them lane by lane, keeps `1` where
  row ≤ unit and the unit's value elsewhere, takes the minimum over the 128 lanes, and meets the carried minimum with it.
  So at `(b, o)` the trip yields `min (carried (b, o)) (⨅ l, rows (b, l) ⇒ units (o, l))`.
-/
import proofs.«140041_j77945066488172_2_alg».proof.Proof.Gen.KernelIdeal.Skeleton
import proofs.«140041_j77945066488172_2_alg».proof.Proof.Heyting
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Trip

open Cert.KernelIdeal Cert.KernelIdeal.Gen Idealize.ShloMosaic Idealize.ShloMosaic.ValueIdx Cert.Heyting

/-- The row block viewed `32 × 1 × 128` and repeated over the 256 units reads, at `(b, o, l)`, row `b` at lane `l`. -/
theorem rows_apply {α : Type} (v : S32x128.Idx → α) (h1 : S32x128.ShapeCasts S32x1x128)
    (h2 : S32x1x128.Broadcasts S32x256x128) (b : Fin 32) (o : Fin 256) (l : Fin 128) :
    broadcastTo S32x256x128 (shapeCast S32x1x128 v h1) h2 (ix3 b o l) = v (ix2 b l) := by
  refine (broadcastTo_apply _ h2 (ix3 b o l) (ix3 b (0 : Fin 1) l) fun a => ?_).trans ?_
  · match a with
    | ⟨0, _⟩ => show b.val = if (32 : ℕ) = 1 then 0 else b.val; rw [if_neg (by decide)]
    | ⟨1, _⟩ => show 0 = if (1 : ℕ) = 1 then 0 else o.val; rw [if_pos rfl]
    | ⟨2, _⟩ => show l.val = if (128 : ℕ) = 1 then 0 else l.val; rw [if_neg (by decide)]
  · exact shapeCast_apply v h1 _ _ (by
      rw [Shape.rowMajor_val_two, Shape.rowMajor_val_three]
      show b.val * 128 + l.val = (b.val * 1 + 0) * 128 + l.val
      omega)

/-- The unit block viewed `1 × 256 × 128` and repeated over the 32 rows reads, at `(b, o, l)`, unit `o` at lane `l`. -/
theorem units_apply {α : Type} (v : S256x128.Idx → α) (h1 : S256x128.ShapeCasts S1x256x128)
    (h2 : S1x256x128.Broadcasts S32x256x128) (b : Fin 32) (o : Fin 256) (l : Fin 128) :
    broadcastTo S32x256x128 (shapeCast S1x256x128 v h1) h2 (ix3 b o l) = v (ix2 o l) := by
  refine (broadcastTo_apply _ h2 (ix3 b o l) (ix3 (0 : Fin 1) o l) fun a => ?_).trans ?_
  · match a with
    | ⟨0, _⟩ => show 0 = if (1 : ℕ) = 1 then 0 else b.val; rw [if_pos rfl]
    | ⟨1, _⟩ => show o.val = if (256 : ℕ) = 1 then 0 else o.val; rw [if_neg (by decide)]
    | ⟨2, _⟩ => show l.val = if (128 : ℕ) = 1 then 0 else l.val; rw [if_neg (by decide)]
  · exact shapeCast_ab_1ab_apply v h1 0 o l

/-- A minimum over the lanes (the last axis of the box), from `+∞`, read at `(b, o)`: the infimum over the lanes. -/
theorem lane_min_apply (src : FVec Ideal S32x256x128 .f32) (h : S32x256x128.Reduces [2] S32x256)
    (hφ : FKind.Formats .f32) (hacc : (0x7F800000#32 : BitVec 32) = FKind.minimumf.neutral .f32 hφ)
    (b : Fin 32) (o : Fin 256) :
    multiReduction .minimumf [2] S32x256 src 0x7F800000#32 h hφ hacc (ix2 b o) = ⨅ l : Fin 128, src (ix3 b o l) := by
  rw [multiReduction_minimumf_eq_fold, h.fold_filter_drop_single]
  have e : FloatOps.ofBits (F := Ideal) .f32 0x7F800000#32 = ⊤ := ofBits_top
  rw [e]
  refine (fold_min_top (n := 128) (src ∘ h.lift (ix2 b o))).trans (iInf_congr fun l => congrArg src ?_)
  funext a; apply Fin.ext
  match a with
  | ⟨0, _⟩ => rfl
  | ⟨1, _⟩ => rfl
  | ⟨2, _⟩ => rfl

/-- ONE TRIP AT `(b, o)`: the carried minimum met with the infimum over the trip's 128 lanes of `row ⇒ unit`. -/
theorem pay_apply (acc : FVec Ideal S32x256 .f32) (v7 : Vec Ideal S32x128 .f32) (v10 : Vec Ideal S256x128 .f32)
    (b : Fin 32) (o : Fin 256) :
    k0_pay2 (F := Ideal) acc v7 v10 (ix2 b o)
      = min (acc (ix2 b o)) (⨅ l : Fin 128, imp (v7 (ix2 b l)) (v10 (ix2 o l))) := by
  unfold k0_pay2
  refine congrArg (min (acc (ix2 b o))) ?_
  refine (lane_min_apply _ _ _ _ b o).trans (iInf_congr fun l => ?_)
  refine (select_apply _ _ _ _).trans ?_
  refine Eq.trans ?_ (select_cmp (v7 (ix2 b l)) (v10 (ix2 o l)))
  have hr := rows_apply (shapeCast S32x128 v7 shapeCasts_S32x128_S32x128) shapeCasts_S32x128_S32x1x128 broadcasts_S32x1x128_S32x256x128 b o l
  rw [shapeCast_self] at hr
  have hu := units_apply (shapeCast S256x128 v10 shapeCasts_S256x128_S256x128) shapeCasts_S256x128_S1x256x128 broadcasts_S1x256x128_S32x256x128 b o l
  rw [shapeCast_self] at hu
  simp only [shapeCast_self]
  show Scalar.select (Ideal.cmp .ole
      (broadcastTo S32x256x128 (shapeCast S32x1x128 v7 shapeCasts_S32x128_S32x1x128) broadcasts_S32x1x128_S32x256x128 (ix3 b o l))
      (broadcastTo S32x256x128 (shapeCast S1x256x128 v10 shapeCasts_S256x128_S1x256x128) broadcasts_S1x256x128_S32x256x128 (ix3 b o l)))
    (Ideal.ofBits .f32 0x3F800000#32)
    (broadcastTo S32x256x128 (shapeCast S1x256x128 v10 shapeCasts_S256x128_S1x256x128) broadcasts_S1x256x128_S32x256x128 (ix3 b o l)) = _
  rw [hr, hu, ofBits_one]

end Cert.KernelIdeal.Trip

end
-- ==== Proof.KernelLoop.lean ====
/-
  The kernel's body at one grid point: what it leaves in the output block, as a function of the two input blocks.

  The body carries a `32 × 256` minimum through eight trips, starting from `+∞`; trip `k` reads columns
  `128 k … 128 k + 127` of the row block `x0` (32 × 1024) and of the unit block `x1` (256 × 1024).  By induction on the
  trips, the carried value at `(b, o)` before trip `n` is the infimum of `x0 (b, i) ⇒ x1 (o, i)` over `i < 128 n`; after
  the eighth it is the infimum over all 1024 features, and that is what the body's one store writes to the block.
-/
import proofs.«140041_j77945066488172_2_alg».proof.Proof.Gen.KernelIdeal.Frame
import proofs.«140041_j77945066488172_2_alg».proof.Proof.KernelTrip

noncomputable section

namespace Cert.KernelIdeal.LoopValue

open Cert.KernelIdeal Cert.KernelIdeal.Gen Idealize.ShloMosaic Idealize.ShloMosaic.TcCoe Idealize.SL.Sem
open Idealize.ShloMosaic.ValueIdx Cert.Heyting

/-- The loop makes eight trips. -/
theorem trips_eq : k0_t1_loop.trips = 8 := by decide

/-- At `(b, o)`, the terms whose infimum the block holds: feature `i` of row `b` implies feature `i` of unit `o`. -/
def term (x0 : Vec Ideal S32x1024 .f32) (x1 : Vec Ideal S256x1024 .f32) (b : Fin 32) (o : Fin 256) : Fin 1024 → EReal :=
  fun i => imp (x0 (ix2 b i)) (x1 (ix2 o i))

/-- ONE TRIP'S YIELD: the trip's arithmetic applied to the carried value and to the two loads at the trip's columns. -/
theorem tripR_eq (𝒱 : Variants) (c : Dev nD) (bd : Option 𝒱.V) (i : grid0.Coords)
    (arg2 : Memref sig .tc .vmem S32x1024 .f32) (harg2 : arg2.IsWhole) (arg3 : Memref sig .tc .vmem S256x1024 .f32)
    (harg3 : arg3.IsWhole) (arg4 : Memref sig .tc .vmem S32x256 .f32) (harg4 : arg4.IsWhole)
    (X2 : BufTy.Contents (Elt Ideal) arg2.view.ty) (X3 : BufTy.Contents (Elt Ideal) arg3.view.ty)
    (k : Fin k0_t1_loop.trips) (acc : FVec Ideal S32x256 .f32) :
    tripR_k0_t1 (F := Ideal) 𝒱 c bd i arg2 harg2 arg3 harg3 arg4 harg4 X2 X3 k acc
      = k0_pay2 acc (View.ld (arg2.view.read (Elt Ideal) X2) (Rect.unit (k0_off1 k) S32x128.size (k0_off1_inb k)))
          (View.ld (arg3.view.read (Elt Ideal) X3) (Rect.unit (k0_off2 k) S256x128.size (k0_off2_inb k))) := by
  unfold tripR_k0_t1 trip_k0_t1
  rfl

/-- Trip `k`'s load of the row block reads, at `(b, l)`, column `128 k + l` of row `b`. -/
theorem ld_rows (x0 : Vec Ideal S32x1024 .f32) (k : Fin k0_t1_loop.trips) (b : Fin 32) (l : Fin 128)
    (hk : 128 * k.val + l.val < 1024) :
    View.ld x0 (Rect.unit (k0_off1 k) S32x128.size (k0_off1_inb k)) (ix2 b l) = x0 (ix2 b ⟨128 * k.val + l.val, hk⟩) := by
  refine congrArg x0 (funext fun a => Fin.ext ?_)
  have h0 := congrFun (k0_off1_eq k) 0
  have h1 := congrFun (k0_off1_eq k) 1
  match a with
  | ⟨0, _⟩ => show k0_off1 k 0 + 1 * b.val = b.val; rw [h0]; show 0 + 1 * b.val = b.val; omega
  | ⟨1, _⟩ => show k0_off1 k 1 + 1 * l.val = 128 * k.val + l.val; rw [h1]; show 128 * k.val + 1 * l.val = 128 * k.val + l.val; omega

/-- Trip `k`'s load of the unit block reads, at `(o, l)`, column `128 k + l` of unit `o`. -/
theorem ld_units (x1 : Vec Ideal S256x1024 .f32) (k : Fin k0_t1_loop.trips) (o : Fin 256) (l : Fin 128)
    (hk : 128 * k.val + l.val < 1024) :
    View.ld x1 (Rect.unit (k0_off2 k) S256x128.size (k0_off2_inb k)) (ix2 o l) = x1 (ix2 o ⟨128 * k.val + l.val, hk⟩) := by
  refine congrArg x1 (funext fun a => Fin.ext ?_)
  have h0 := congrFun (k0_off2_eq k) 0
  have h1 := congrFun (k0_off2_eq k) 1
  match a with
  | ⟨0, _⟩ => show k0_off2 k 0 + 1 * o.val = o.val; rw [h0]; show 0 + 1 * o.val = o.val; omega
  | ⟨1, _⟩ => show k0_off2 k 1 + 1 * l.val = 128 * k.val + l.val; rw [h1]; show 128 * k.val + 1 * l.val = 128 * k.val + l.val; omega

section Carried

variable (𝒱 : Variants) (c : Dev nD) (bd : Option 𝒱.V) (i : grid0.Coords)
  (arg2 : Memref sig .tc .vmem S32x1024 .f32) (harg2 : arg2.IsWhole) (arg3 : Memref sig .tc .vmem S256x1024 .f32)
  (harg3 : arg3.IsWhole) (arg4 : Memref sig .tc .vmem S32x256 .f32) (harg4 : arg4.IsWhole)
  (x0 : Vec Ideal S32x1024 .f32) (x1 : Vec Ideal S256x1024 .f32)

/-- THE INVARIANT: before trip `n` the carried value at `(b, o)` is the infimum of the terms of index below `128 n`. -/
theorem carried_eq : ∀ n : ℕ, n ≤ 8 → ∀ (b : Fin 32) (o : Fin 256),
    st_k0_t1 (F := Ideal) 𝒱 c bd i arg2 harg2 arg3 harg3 arg4 harg4 (harg2.unread x0) (harg3.unread x1) k0_pay1 n (ix2 b o)
      = infBelow (term x0 x1 b o) (128 * n)
  | 0, _, b, o => by
    rw [st_k0_t1_zero, Nat.mul_zero, infBelow_zero]
    exact ofBits_top
  | n + 1, hn, b, o => by
    have hlt : n < k0_t1_loop.trips := by rw [trips_eq]; omega
    have hs := st_k0_t1_succ (F := Ideal) 𝒱 c bd i arg2 harg2 arg3 harg3 arg4 harg4 (harg2.unread x0) (harg3.unread x1) k0_pay1 ⟨n, hlt⟩
    rw [show (⟨n, hlt⟩ : Fin k0_t1_loop.trips).val + 1 = n + 1 from rfl] at hs
    rw [hs, tripR_eq, harg2.read_unread, harg3.read_unread, Trip.pay_apply, carried_eq n (by omega) b o]
    refine infBelow_run (term x0 x1 b o) n (by omega) _ fun l => ?_
    have hk : 128 * n + l.val < 1024 := by have := l.isLt; omega
    show imp _ _ = imp _ _
    rw [ld_rows x0 ⟨n, hlt⟩ b l hk, ld_units x1 ⟨n, hlt⟩ o l hk]

end Carried

theorem hz : (![0, 0] : Fin 2 → Nat) = fun _ => 0 := funext fun a => by fin_cases a <;> rfl

/-- WHAT THE BODY LEAVES IN THE OUTPUT BLOCK: at `(b, o)`, the infimum over all 1024 features of
    `x0 (b, i) ⇒ x1 (o, i)`. -/
theorem out_apply (c : Dev nD) (i : grid0.Coords)
    (arg2 : Memref sig .tc .vmem S32x1024 .f32) (harg2 : arg2.IsWhole) (arg3 : Memref sig .tc .vmem S256x1024 .f32)
    (harg3 : arg3.IsWhole) (arg4 : Memref sig .tc .vmem S32x256 .f32) (harg4 : arg4.IsWhole)
    (x0 : Vec Ideal S32x1024 .f32) (x1 : Vec Ideal S256x1024 .f32) (b : Fin 32) (o : Fin 256) :
    out0_A_2 (F := Ideal) c i arg2 harg2 arg3 harg3 arg4 harg4 x0 x1 (ix2 b o) = ⨅ j : Fin 1024, term x0 x1 b o j := by
  unfold out0_A_2
  rw [View.read_writes_eq_canon _ _ _ (cover0_A_2 c i arg2 harg2 arg3 harg3 arg4 harg4 x0 x1)]
  unfold kernelRun0_A
  dsimp only
  rw [View.canon_unit_zero hz]
  have e : Scf.trips (0#32) (Scalar.addi 0#32 8#32) 1#32 = 8 := trips_eq
  rw [e, ← infBelow_all]
  exact carried_eq Variants.none c none i arg2 harg2 arg3 harg3 arg4 harg4 x0 x1 8 (le_refl 8) b o

end Cert.KernelIdeal.LoopValue

end
-- ==== Proof.Layer.lean ====
/-
  The layer as one function of two arrays: for `A` of 128 rows and `B` of 1024 units, each with 1024 features,
  the output at `(r, u)` is the infimum over the features `i` of `A (r, i) ⇒ B (u, i)`; and the logistic
  `1 / (1 + e^{-x})` applied to every entry of an array, spelt with the host's operations as both programs spell it.
-/
import proofs.«140041_j77945066488172_2_alg».proof.Proof.Heyting
import Idealize.ShloMosaic.PureOps
import Idealize.ShloMosaic.Lib.ValueIdx

noncomputable section

namespace Cert.Heyting

open Idealize.ShloMosaic Idealize.ShloMosaic.ValueIdx

/-- The output at row `r` and unit `u`. -/
def layerAt (A : (⟨2, ![128, 1024]⟩ : Shape).Idx → EReal) (B : (⟨2, ![1024, 1024]⟩ : Shape).Idx → EReal)
    (r : Fin 128) (u : Fin 1024) : EReal :=
  ⨅ i : Fin 1024, imp (A (ix2 r i)) (B (ix2 u i))

/-- The output array. -/
def layer (A : (⟨2, ![128, 1024]⟩ : Shape).Idx → EReal) (B : (⟨2, ![1024, 1024]⟩ : Shape).Idx → EReal) :
    (⟨2, ![128, 1024]⟩ : Shape).Idx → EReal :=
  fun j => layerAt A B ⟨(j 0).val, idx2_lt0 j⟩ ⟨(j 1).val, idx2_lt1 j⟩

/-- The logistic of every entry, as `1 / (1 + exp (-x))` in the host's operations. -/
def sigm (s : Shape) (h : (⟨0, ![]⟩ : Shape).BroadcastsInDim s (![] : Fin 0 → Fin s.rank)) (x : FVec Ideal s .f32) :
    FVec Ideal s .f32 :=
  Host.divf (F := Ideal) (broadcastInDim s ![] h (constant (F := Ideal) ⟨0, ![]⟩ .f32 0x3F800000#32))
    (addf (broadcastInDim s ![] h (constant (F := Ideal) ⟨0, ![]⟩ .f32 0x3F800000#32)) (Host.exp (F := Ideal) (Host.negf (F := Ideal) x)))

end Cert.Heyting

end
-- ==== Proof.KernelArray.lean ====
/-
  From blocks to the array.  Grid point `(p, q)` of the 4 × 4 grid stages rows `32 p … 32 p + 31` of the row array,
  units `256 q … 256 q + 255` of the unit array (all 1024 features of each), and writes block `(p, q)` of the output.
  The body's block at `(b, o)` is the infimum over the features of `row (32 p + b) ⇒ unit (256 q + o)`, which is the
  layer's output at `(32 p + b, 256 q + o)`: every block is a restriction of one whole-array function, the sixteen blocks
  tile the `128 × 1024` output, so after the run the output array is the layer of the two staged arrays — and those are
  the logistic of the two arguments, computed by the host before the call.
-/
import proofs.«140041_j77945066488172_2_alg».proof.Proof.Gen.KernelIdeal.Value
import proofs.«140041_j77945066488172_2_alg».proof.Proof.KernelLoop
import proofs.«140041_j77945066488172_2_alg».proof.Proof.Layer
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Heyting
open Idealize.ShloMosaic.Pipeline (Dat)

variable (m : (ℓ : Loc nD τ sig) → Buf (Elt Ideal) ℓ) (ρ : Dev nD → PrngReg)

/-- The index maps over the 16 points: the row window follows the output's first block index, the unit window its
    second, both at feature block 0; the output's block indices are below 4. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block index pair of the output is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- WHAT POINT `t` WRITES BACK is block `t` of the layer of the two staged arrays. -/
theorem flushed_eq (c : Dev nD) (t : Fin cfg0.N) :
    (dats m 0 c).flushed 2 t
      = ((cfg0.win 2).blk t).view.read (Elt Ideal) (layer (V m c main_v5) (V m c main_v11)) := by
  rw [flushed2_A]
  obtain ⟨e0, e1, e2, e3, e4, e5⟩ := idx_facts t
  funext y
  obtain ⟨b, o, rfl⟩ : ∃ (b : Fin 32) (o : Fin 256), y = ix2 b o := ⟨y 0, y 1, eq_ix2 (n0 := 32) (n1 := 256) y⟩
  show out0_A_2 c (grid0.coords t) (ms0_0 t) (hs0_0 t) (ms0_1 t) (hs0_1 t) (ms0_2 t) (hs0_2 t) (iblk m c 0 t) (iblk m c 1 t) (ix2 b o)
    = layer (V m c main_v5) (V m c main_v11) (((cfg0.win 2).blk t).view.emb (ix2 b o))
  refine (LoopValue.out_apply c (grid0.coords t) (ms0_0 t) (hs0_0 t) (ms0_1 t) (hs0_1 t) (ms0_2 t) (hs0_2 t)
    (iblk m c 0 t) (iblk m c 1 t) b o).trans ?_
  unfold layer layerAt
  refine iInf_congr fun i => ?_
  unfold LoopValue.term
  have hA : iblk m c 0 t (ix2 b i)
      = V m c main_v5 (ix2 ⟨(((cfg0.win 2).blk t).view.emb (ix2 b o) 0).val, idx2_lt0 _⟩ i) := by
    unfold iblk
    show V m c main_v5 (((cfg0.win 0).blk t).view.emb (ix2 b i)) = _
    refine congrArg (V m c main_v5) (funext fun a => Fin.ext ?_)
    match a with
    | ⟨0, _⟩ => show win0_0.index t (0 : Fin 2) * 32 + 1 * b.val = win0_2.index t (0 : Fin 2) * 32 + 1 * b.val; omega
    | ⟨1, _⟩ => show win0_0.index t (1 : Fin 2) * 1024 + 1 * i.val = i.val; omega
  have hB : iblk m c 1 t (ix2 o i)
      = V m c main_v11 (ix2 ⟨(((cfg0.win 2).blk t).view.emb (ix2 b o) 1).val, idx2_lt1 _⟩ i) := by
    unfold iblk
    show V m c main_v11 (((cfg0.win 1).blk t).view.emb (ix2 o i)) = _
    refine congrArg (V m c main_v11) (funext fun a => Fin.ext ?_)
    match a with
    | ⟨0, _⟩ => show win0_1.index t (0 : Fin 2) * 256 + 1 * o.val = win0_2.index t (1 : Fin 2) * 256 + 1 * o.val; omega
    | ⟨1, _⟩ => show win0_1.index t (1 : Fin 2) * 1024 + 1 * i.val = i.val; omega
  rw [hA, hB]

/-- An index of the output array is in point `t`'s block iff each coordinate is in the block's range on its axis. -/
theorem mem_blk (t : Fin cfg0.N) (i : S128x1024.Idx) :
    i ∈ ((cfg0.win 2).blk t).view.set
      ↔ ∀ a : Fin 2, win0_2.index t a * S32x256.size a ≤ (i a).val ∧ (i a).val < win0_2.index t a * S32x256.size a + S32x256.size a := by
  show i ∈ ((View.whole main_v12).slice (win0_2.rect t)).set ↔ _
  rw [View.set_slice_whole, Rect.mem_set_unit]
  exact Iff.rfl

/-- The sixteen blocks tile the output: index `(r, u)` is in the block of the point with block indices `(r / 32, u / 256)`. -/
theorem cover (i : S128x1024.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  obtain ⟨t, ht⟩ := idx_onto ⟨(i 0).val / 32, by omega⟩ ⟨(i 1).val / 256, by omega⟩
  have q0 : win0_2.index t (0 : Fin 2) = (i 0).val / 32 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 256 ≤ (i 1).val ∧ (i 1).val < win0_2.index t (1 : Fin 2) * 256 + 256; omega

/-- The staged row array is the logistic of the first argument, -/
theorem V_rows (c : Dev nD) :
    (V m c main_v5 : S128x1024.Idx → EReal) = sigm S128x1024 bcast_S_S128x1024 (m ((c : Thread nD τ).loc main_arg0)) := by
  dsimp only [Gen.V, Gen.hostOps0]; after_results; rfl

/-- and the staged unit array the logistic of the second. -/
theorem V_units (c : Dev nD) :
    (V m c main_v11 : S1024x1024.Idx → EReal) = sigm S1024x1024 bcast_S_S1024x1024 (m ((c : Thread nD τ).loc main_arg1)) := by
  dsimp only [Gen.V, Gen.hostOps0]; after_results; rfl

/-- THE OUTPUT ARRAY after the run: the layer of the logistics of the two arguments. -/
theorem final (c : Dev nD) : (dats m 0 c).arrAt 2 cfg0.N
    = layer (sigm S128x1024 bcast_S_S128x1024 (m ((c : Thread nD τ).loc main_arg0)))
        (sigm S1024x1024 bcast_S_S1024x1024 (m ((c : Thread nD τ).loc main_arg1))) := by
  rw [← V_rows m c, ← V_units m c]
  exact (dats m 0 c).arrAt_eq_of_cover 2 _ (fun t _ => flushed_eq m c t) cover

/-- The kernel's run, read: the result array at the layer of the logistics of the arguments, the arguments unchanged. -/
theorem run : θ_run defs (onTc (τ := τ) (main (F := Ideal))) ⟨m, fun _ => 0, ρ⟩ fun r => ∀ c : Dev nD,
      r.2.mem ((c : Thread nD τ).loc main_v12)
        = layer (sigm S128x1024 bcast_S_S128x1024 (m ((c : Thread nD τ).loc main_arg0)))
            (sigm S1024x1024 bcast_S_S1024x1024 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.Reference.lean ====
/-
  The reference, read at an output position.

  The reference forms, for every row `r`, unit `u` and feature `k`, the straight-through value
  `c + (1 - c) · B` with `c = (e - s) + s`, where `A`, `B` are the logistics of the two arguments at `(r, k)` and
  `(u, k)`, `e` is `1` or `0` as `A ≤ B` or not, and `s` is the logistic of `50 · (B - A)`; then it takes the minimum
  over `k` from `+∞`.  A logistic is a real number, so `c = e` exactly and the value is `A ⇒ B`; the minimum over the
  feature axis from `+∞` is the infimum over it.  So the reference's result is the layer of the two logistic arrays.
-/
import proofs.«140041_j77945066488172_2_alg».proof.Proof.Gen.ReferenceIdeal.Read
import proofs.«140041_j77945066488172_2_alg».proof.Proof.Layer
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.Heyting
open Cert.ReferenceIdeal.Read

/-- The soft comparison: the logistic of `c50 · (b - a)`, in the host's operations. -/
def soft (c50 a b : Ideal .f32) : Ideal .f32 :=
  FloatOps.hostDivf (FloatOps.ofBits .f32 0x3F800000#32)
    (FloatOps.addf (FloatOps.ofBits .f32 0x3F800000#32) (FloatOps.hostUnary .exp (FloatOps.hostNegf (FloatOps.mulf c50 (FloatOps.subf b a)))))

/-- The straight-through condition `(e - s) + s`. -/
def cond (c50 a b : Ideal .f32) : Ideal .f32 :=
  FloatOps.addf (FloatOps.subf (FloatOps.uitofp .f32 (FloatOps.cmpf .ole a b)) (soft c50 a b)) (soft c50 a b)

/-- The reference's implication `c + (1 - c) · b`. -/
def stImp (c50 a b : Ideal .f32) : Ideal .f32 :=
  FloatOps.addf (cond c50 a b) (FloatOps.mulf (FloatOps.subf (FloatOps.ofBits .f32 0x3F800000#32) (cond c50 a b)) b)

/-- It is the implication: the soft comparison is a real number, whatever the scale `c50` and the operands. -/
theorem stImp_eq (c50 a b : Ideal .f32) : stImp c50 a b = imp a b := by
  have hs : ∃ r : ℝ, soft c50 a b = (r : EReal) := by
    unfold soft
    show ∃ r : ℝ, Ideal.div (Ideal.ofBits .f32 0x3F800000#32) (Ideal.ofBits .f32 0x3F800000#32 + Ideal.exp (-(c50 * (b - a)))) = (r : EReal)
    rw [ofBits_one]
    exact logistic_real _
  unfold stImp cond
  generalize soft c50 a b = s at hs ⊢
  show ((((Ideal.cmp .ole a b).toNat : ℝ) : EReal) - s + s)
      + (Ideal.ofBits .f32 0x3F800000#32 - ((((Ideal.cmp .ole a b).toNat : ℝ) : EReal) - s + s)) * b = imp a b
  rw [ofBits_one]
  exact straight_through a b s hs

/-- The value under the minimum, at `(r, u, k)`: feature `k` of row `r` implies feature `k` of unit `u`. -/
theorem v35_apply (x0 : (⟨S128x1024, .f32⟩ : BufTy).Contents (Elt Ideal)) (x1 : (⟨S1024x1024, .f32⟩ : BufTy).Contents (Elt Ideal))
    (r : Fin 128) (u : Fin 1024) (k : Fin 1024) :
    val_main_v35 (F := Ideal) x0 x1 (ix3 r u k)
      = imp (val_main_v5 (F := Ideal) x0 (ix2 r k)) (val_main_v11 (F := Ideal) x1 (ix2 u k)) := by
  have i1 : idx_main_v12 (idx_main_v14 (ix3 r u k)) = ix2 r k :=
    funext fun a => Fin.ext (by match a with | ⟨0, _⟩ => rfl | ⟨1, _⟩ => rfl)
  have i2 : idx_main_v12 (idx_main_v19 (ix3 r u k)) = ix2 r k :=
    funext fun a => Fin.ext (by match a with | ⟨0, _⟩ => rfl | ⟨1, _⟩ => rfl)
  have i3 : idx_main_v13 (idx_main_v15 (ix3 r u k)) = ix2 u k :=
    funext fun a => Fin.ext (by match a with | ⟨0, _⟩ => rfl | ⟨1, _⟩ => rfl)
  have i4 : idx_main_v13 (idx_main_v18 (ix3 r u k)) = ix2 u k :=
    funext fun a => Fin.ext (by match a with | ⟨0, _⟩ => rfl | ⟨1, _⟩ => rfl)
  have i5 : idx_main_v13 (idx_main_v33 (ix3 r u k)) = ix2 u k :=
    funext fun a => Fin.ext (by match a with | ⟨0, _⟩ => rfl | ⟨1, _⟩ => rfl)
  simp only [val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_cst_3_apply, val_main_cst_4_apply, val_main_cst_5_apply, val_main_cst_6_apply, i1, i2, i3, i4, i5]
  exact stImp_eq (FloatOps.ofBits .f32 0x42480000#32) _ _

/-- The two logistic stages are the logistic of the arguments. -/
theorem v5_eq (x0 : (⟨S128x1024, .f32⟩ : BufTy).Contents (Elt Ideal)) :
    val_main_v5 (F := Ideal) x0 = sigm S128x1024 bcast_S_S128x1024 x0 := rfl

theorem v11_eq (x1 : (⟨S1024x1024, .f32⟩ : BufTy).Contents (Elt Ideal)) :
    val_main_v11 (F := Ideal) x1 = sigm S1024x1024 bcast_S_S1024x1024 x1 := rfl

/-- THE REFERENCE'S RESULT is the layer of the logistics of its two arguments. -/
theorem result_eq (x0 : (⟨S128x1024, .f32⟩ : BufTy).Contents (Elt Ideal)) (x1 : (⟨S1024x1024, .f32⟩ : BufTy).Contents (Elt Ideal)) :
    val_main_v36 (F := Ideal) x0 x1
      = layer (sigm S128x1024 bcast_S_S128x1024 x0) (sigm S1024x1024 bcast_S_S1024x1024 x1) := by
  rw [← v5_eq, ← v11_eq]
  funext j
  obtain ⟨r, u, rfl⟩ : ∃ (r : Fin 128) (u : Fin 1024), j = ix2 r u := ⟨j 0, j 1, eq_ix2 j⟩
  unfold val_main_v36
  have h : S128x1024x1024.Reduces [2] S128x1024 := by decide
  rw [Host.reduce_eq_fold_single FloatOps.minimumf _ _ reducesTo_S128x1024x1024_S128x1024_d2 h h_S_ (ix2 r u)]
  have e : val_main_cst_7 (F := Ideal) (Shape.Idx.first h_S_) = ⊤ := ofBits_top
  rw [e]
  refine (fold_min_top (n := 1024) _).trans ?_
  show _ = layerAt _ _ ⟨r.val, _⟩ ⟨u.val, _⟩
  unfold layerAt
  refine iInf_congr fun k => ?_
  have hl : h.lift (ix2 r u) k = ix3 r u k :=
    funext fun a => Fin.ext (by match a with | ⟨0, _⟩ => rfl | ⟨1, _⟩ => rfl | ⟨2, _⟩ => rfl)
  show val_main_v35 x0 x1 (h.lift (ix2 r u) k) = _
  rw [hl, v35_apply]

end Cert.ReferenceIdeal.RefValue

end
-- ==== Proof.lean ====
/-
  The layer computes, for 128 rows and 1024 units with 1024 features each, the infimum over the features of
  `A (row, i) ⇒ B (unit, i)`, where `A` and `B` are the logistics of the two arguments and `a ⇒ b` is `1` when `a ≤ b`
  and `b` otherwise.

  The kernel takes the logistics on the host, then for each of the 4 × 4 blocks of the output runs eight trips over the
  features, 128 at a time, selecting `1` or the unit's value by the comparison and carrying the minimum from `+∞`.
  The reference forms `c + (1 - c) · B` with `c = (e - s) + s`, `e` the comparison as a number and `s` a logistic of the
  scaled difference, and takes one minimum over all the features.  At exact arithmetic on the extended reals the two are
  one function: a logistic is a real number, so `c = e` and the straight-through form is the selection
  (Proof/Heyting.lean); an infimum taken in eight runs is the infimum (there too); the blocks tile the output
  (Proof/KernelArray.lean); the reference's minimum over the feature axis is the same infimum (Proof/Reference.lean).
  No property of the inputs beyond what the programs compute is used: the logistic is real at the infinities too.
-/
import proofs.«140041_j77945066488172_2_alg».proof.Defs
import proofs.«140041_j77945066488172_2_alg».proof.Proof.Gen.Kernel
import proofs.«140041_j77945066488172_2_alg».proof.Proof.Gen.Kernel.Skeleton
import proofs.«140041_j77945066488172_2_alg».proof.Proof.Gen.Kernel.Loops
import proofs.«140041_j77945066488172_2_alg».proof.Proof.Gen.Kernel.Launch
import proofs.«140041_j77945066488172_2_alg».proof.Proof.Gen.Kernel.Points
import proofs.«140041_j77945066488172_2_alg».proof.Proof.Gen.Kernel.Frame
import proofs.«140041_j77945066488172_2_alg».proof.Proof.Gen.KernelIdeal
import proofs.«140041_j77945066488172_2_alg».proof.Proof.Gen.KernelIdeal.Skeleton
import proofs.«140041_j77945066488172_2_alg».proof.Proof.Gen.KernelIdeal.Loops
import proofs.«140041_j77945066488172_2_alg».proof.Proof.Gen.KernelIdeal.Launch
import proofs.«140041_j77945066488172_2_alg».proof.Proof.Gen.KernelIdeal.Points
import proofs.«140041_j77945066488172_2_alg».proof.Proof.Gen.KernelIdeal.Frame
import proofs.«140041_j77945066488172_2_alg».proof.Proof.Gen.ReferenceIdeal
import proofs.«140041_j77945066488172_2_alg».proof.Proof.Gen.Pre_finite_inputs
import proofs.«140041_j77945066488172_2_alg».proof.Proof.Gen.KernelIdeal.Value
import proofs.«140041_j77945066488172_2_alg».proof.Proof.Gen.ReferenceIdeal.Run
import proofs.«140041_j77945066488172_2_alg».proof.Proof.Gen.ReferenceIdeal.Read
import proofs.«140041_j77945066488172_2_alg».proof.Proof.KernelArray
import proofs.«140041_j77945066488172_2_alg».proof.Proof.Reference
import Idealize.ShloMosaic.Adequacy
import Idealize.ShloMosaic.Init

noncomputable section

namespace Cert.Proof

open Idealize.ShloMosaic Idealize.SL.Sem

/-- Each kernel program runs to the end without a fault and leaves its arguments as they were. -/
theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- Both programs end with the layer of the logistics of the arguments in their result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
